-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32 : Shape := ⟨2, ![2048, 32]⟩
abbrev S_ : Shape := ⟨0, ![]⟩

class Facts : Prop where
  bcast_S_S2048x32 : S_.BroadcastsInDim S2048x32 (![] : Fin 0 → Fin S2048x32.rank)
  reducesTo_S2048x32_S_d0_1 : S2048x32.ReducesTo [0, 1] S_
  h_S_ : 0 < S_.numel
  reducesTo_S_S_d : S_.ReducesTo [] S_

variable [Facts]

def fn {F : FTy → Type} [FloatOps F] (main_arg0 : FVec F S2048x32 .f32) (main_arg1 : FVec F S2048x32 .f32) (main_arg2 : FVec F S_ .f32) : IVec S_ 1 :=
  let main_v0 : FVec F S2048x32 .f32 := Host.absf main_arg0
  let main_cst : FVec F S_ .f32 := constant S_ .f32 0x7F800000#32
  let main_v1 : FVec F S2048x32 .f32 := broadcastInDim S2048x32 ![] bcast_S_S2048x32 main_cst
  let main_v2 : IVec S2048x32 1 := cmpf .olt main_v0 main_v1
  let main_c : IVec S_ 1 := constantI S_ 1 1#1
  let main_v3 : IVec S_ 1 := (fun x v => Host.reduce IntOp.andi x v reducesTo_S2048x32_S_d0_1 h_S_) main_v2 main_c
  let main_v4 : FVec F S2048x32 .f32 := Host.absf main_arg1
  let main_cst_0 : FVec F S_ .f32 := constant S_ .f32 0x7F800000#32
  let main_v5 : FVec F S2048x32 .f32 := broadcastInDim S2048x32 ![] bcast_S_S2048x32 main_cst_0
  let main_v6 : IVec S2048x32 1 := cmpf .olt main_v4 main_v5
  let main_c_1 : IVec S_ 1 := constantI S_ 1 1#1
  let main_v7 : IVec S_ 1 := (fun x v => Host.reduce IntOp.andi x v reducesTo_S2048x32_S_d0_1 h_S_) main_v6 main_c_1
  let main_v8 : IVec S_ 1 := andi main_v3 main_v7
  let main_v9 : FVec F S_ .f32 := Host.absf main_arg2
  let main_cst_2 : FVec F S_ .f32 := constant S_ .f32 0x7F800000#32
  let main_v10 : IVec S_ 1 := cmpf .olt main_v9 main_cst_2
  let main_c_3 : IVec S_ 1 := constantI S_ 1 1#1
  let main_v11 : IVec S_ 1 := (fun x v => Host.reduce IntOp.andi x v reducesTo_S_S_d h_S_) main_v10 main_c_3
  let main_v12 : IVec S_ 1 := andi main_v8 main_v11
  main_v12
-- ==== Kernel.lean ====
abbrev S2048x32 : Shape := ⟨2, ![2048, 32]⟩
abbrev S_ : Shape := ⟨0, ![]⟩
abbrev S32x2048 : Shape := ⟨2, ![32, 2048]⟩
abbrev S32x2048x1 : Shape := ⟨3, ![32, 2048, 1]⟩
abbrev S32x1x2048 : Shape := ⟨3, ![32, 1, 2048]⟩
abbrev S1x1 : Shape := ⟨2, ![1, 1]⟩
abbrev S32x128x1 : Shape := ⟨3, ![32, 128, 1]⟩
abbrev S32x1x128 : Shape := ⟨3, ![32, 1, 128]⟩
abbrev S32x128x128 : Shape := ⟨3, ![32, 128, 128]⟩
abbrev S32x128 : Shape := ⟨2, ![32, 128]⟩
abbrev S128 : Shape := ⟨1, ![128]⟩
abbrev S1x128 : Shape := ⟨2, ![1, 128]⟩
abbrev S1 : Shape := ⟨1, ![1]⟩

abbrev nBuf : Space → Nat
  | .hbm => 12
  | .vmem => 10
  | .smem => 0
  | _ => 0

abbrev bufTy : (tb : Table) → Fin (tcTables nBuf tb) → BufTy
  | .hbm, ⟨0, _⟩ => ⟨S2048x32, .f32⟩
  | .hbm, ⟨1, _⟩ => ⟨S2048x32, .f32⟩
  | .hbm, ⟨2, _⟩ => ⟨S_, .f32⟩
  | .hbm, ⟨3, _⟩ => ⟨S32x2048, .f32⟩
  | .hbm, ⟨4, _⟩ => ⟨S32x2048, .f32⟩
  | .hbm, ⟨5, _⟩ => ⟨S32x2048x1, .f32⟩
  | .hbm, ⟨6, _⟩ => ⟨S32x1x2048, .f32⟩
  | .hbm, ⟨7, _⟩ => ⟨S32x2048x1, .f32⟩
  | .hbm, ⟨8, _⟩ => ⟨S32x1x2048, .f32⟩
  | .hbm, ⟨9, _⟩ => ⟨S1x1, .f32⟩
  | .hbm, ⟨10, _⟩ => ⟨S1x1, .f32⟩
  | .hbm, ⟨11, _⟩ => ⟨S_, .f32⟩
  | .local _ .vmem, ⟨0, _⟩ => ⟨S1x1, .f32⟩
  | .local _ .vmem, ⟨1, _⟩ => ⟨S32x128x1, .f32⟩
  | .local _ .vmem, ⟨2, _⟩ => ⟨S32x128x1, .f32⟩
  | .local _ .vmem, ⟨3, _⟩ => ⟨S32x1x128, .f32⟩
  | .local _ .vmem, ⟨4, _⟩ => ⟨S32x1x128, .f32⟩
  | .local _ .vmem, ⟨5, _⟩ => ⟨S32x128x1, .f32⟩
  | .local _ .vmem, ⟨6, _⟩ => ⟨S32x128x1, .f32⟩
  | .local _ .vmem, ⟨7, _⟩ => ⟨S32x1x128, .f32⟩
  | .local _ .vmem, ⟨8, _⟩ => ⟨S32x1x128, .f32⟩
  | .local _ .vmem, ⟨9, _⟩ => ⟨S1x1, .f32⟩
  | _, _ => ⟨S2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S32x128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S32x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

class Facts₀ : Prop where
  transposes_S2048x32_S32x2048_1_0 : S2048x32.Transposes [1, 0] S32x2048
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  shapeCasts_S_S1x1 : S_.ShapeCasts S1x1
  inb_S1x1_S1x1_0_0 : ∀ a, (![0, 0] : Fin 2 → Nat) a + S1x1.size a ≤ S1x1.size a
  h_S1x1 : 0 < S1x1.numel
  inb_S32x128x1_S32x128x1_0_0_0 : ∀ a, (![0, 0, 0] : Fin 3 → Nat) a + S32x128x1.size a ≤ S32x128x1.size a
  h_S32x128x1 : 0 < S32x128x1.numel
  shapeCasts_S32x128x1_S32x128x1 : S32x128x1.ShapeCasts S32x128x1
  inb_S32x1x128_S32x1x128_0_0_0 : ∀ a, (![0, 0, 0] : Fin 3 → Nat) a + S32x1x128.size a ≤ S32x1x128.size a
  h_S32x1x128 : 0 < S32x1x128.numel
  shapeCasts_S32x1x128_S32x1x128 : S32x1x128.ShapeCasts S32x1x128
  broadcasts_S32x128x1_S32x128x128 : S32x128x1.Broadcasts S32x128x128
  broadcasts_S32x1x128_S32x128x128 : S32x1x128.Broadcasts S32x128x128
  inpos_S1x1_p0_0 : ∀ a, (![0, 0] : Fin 2 → Nat) a < S1x1.size a
  reduces_S32x128x128_S32x128 : S32x128x128.Reduces [2] S32x128
  reduces_S32x128_S128 : S32x128.Reduces [0] S128
  shapeCasts_S128_S1x128 : S128.ShapeCasts S1x128
  reduces_S1x128_S1 : S1x128.Reduces [1] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128x1.size a ≤ S32x2048x1.size a
  hwx0_1 : ∀ i : grid0.Coords, EltTy.bits .f32 = 32 ∨ (Rect.block (s := S32x2048x1) S32x128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1x128.size a ≤ S32x1x2048.size a
  hwx0_2 : ∀ i : grid0.Coords, EltTy.bits .f32 = 32 ∨ (Rect.block (s := S32x1x2048) S32x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128x1.size a ≤ S32x2048x1.size a
  hwx0_3 : ∀ i : grid0.Coords, EltTy.bits .f32 = 32 ∨ (Rect.block (s := S32x2048x1) S32x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1x128.size a ≤ S32x1x2048.size a
  hwx0_4 : ∀ i : grid0.Coords, EltTy.bits .f32 = 32 ∨ (Rect.block (s := S32x1x2048) S32x1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

abbrev win0_0 : Pipeline.Window sig grid0 :=
  Pipeline.Window.ofSpec (Memref.whole main_v6) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S32x128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S32x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S32x128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S32x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x32 : Shape := ⟨2, ![2048, 32]⟩
abbrev S_ : Shape := ⟨0, ![]⟩
abbrev S32x2048 : Shape := ⟨2, ![32, 2048]⟩
abbrev S32x2048x1 : Shape := ⟨3, ![32, 2048, 1]⟩
abbrev S32x1x2048 : Shape := ⟨3, ![32, 1, 2048]⟩
abbrev S32x2048x2048 : Shape := ⟨3, ![32, 2048, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x32, .f32⟩
  | .hbm, ⟨1, _⟩ => ⟨S2048x32, .f32⟩
  | .hbm, ⟨2, _⟩ => ⟨S_, .f32⟩
  | .hbm, ⟨3, _⟩ => ⟨S32x2048, .f32⟩
  | .hbm, ⟨4, _⟩ => ⟨S32x2048, .f32⟩
  | .hbm, ⟨5, _⟩ => ⟨S32x2048x1, .f32⟩
  | .hbm, ⟨6, _⟩ => ⟨S32x1x2048, .f32⟩
  | .hbm, ⟨7, _⟩ => ⟨S32x2048x2048, .f32⟩
  | .hbm, ⟨8, _⟩ => ⟨S32x2048x2048, .f32⟩
  | .hbm, ⟨9, _⟩ => ⟨S32x2048x2048, .f32⟩
  | .hbm, ⟨10, _⟩ => ⟨S32x2048x1, .f32⟩
  | .hbm, ⟨11, _⟩ => ⟨S32x1x2048, .f32⟩
  | .hbm, ⟨12, _⟩ => ⟨S32x2048x2048, .f32⟩
  | .hbm, ⟨13, _⟩ => ⟨S32x2048x2048, .f32⟩
  | .hbm, ⟨14, _⟩ => ⟨S32x2048x2048, .f32⟩
  | .hbm, ⟨15, _⟩ => ⟨S32x2048x2048, .f32⟩
  | .hbm, ⟨16, _⟩ => ⟨S32x2048x2048, .f32⟩
  | .hbm, ⟨17, _⟩ => ⟨S32x2048x2048, .f32⟩
  | .hbm, ⟨18, _⟩ => ⟨S_, .f32⟩
  | .hbm, ⟨19, _⟩ => ⟨S32x2048x2048, .f32⟩
  | .hbm, ⟨20, _⟩ => ⟨S32x2048x2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  transposes_S2048x32_S32x2048_1_0 : S2048x32.Transposes [1, 0] S32x2048
  bcast_S32x2048_S32x2048x1_0_1 : S32x2048.BroadcastsInDim S32x2048x1 (![0, 1] : Fin 2 → Fin S32x2048x1.rank)
  bcast_S32x2048_S32x1x2048_0_2 : S32x2048.BroadcastsInDim S32x1x2048 (![0, 2] : Fin 2 → Fin S32x1x2048.rank)
  bcast_S32x2048x1_S32x2048x2048_0_1_2 : S32x2048x1.BroadcastsInDim S32x2048x2048 (![0, 1, 2] : Fin 3 → Fin S32x2048x2048.rank)
  bcast_S32x1x2048_S32x2048x2048_0_1_2 : S32x1x2048.BroadcastsInDim S32x2048x2048 (![0, 1, 2] : Fin 3 → Fin S32x2048x2048.rank)
  bcast_S_S32x2048x2048 : S_.BroadcastsInDim S32x2048x2048 (![] : Fin 0 → Fin S32x2048x2048.rank)
  reducesTo_S32x2048x2048_S_d0_1_2 : S32x2048x2048.ReducesTo [0, 1, 2] S_
  h_S_ : 0 < S_.numel

variable [Facts₀]

class Facts : Prop extends Facts₀ where

variable [Facts]
-- ==== Proof.CaseValues.lean ====
/-
  What one grid point leaves in the accumulator block, case by case.

  The body keeps one running total in a 1×1 block that stays in place over the whole grid. At the first point it first
  overwrites the block with zero, then adds the point's tile total to what it reads back; at every later point it adds the tile
  total to what the point before left; at the last point it then divides what it has just stored by 4096. Each store covers the
  whole block, so the block ends at the last store's value, and a load after a store reads that store's value. Stated for any
  float instance.
-/
import proofs.«156828_j21775484190872_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.CaseValues
open Cert.KernelIdeal Cert.KernelIdeal.Gen

variable {F : FTy → Type} [FloatOps F]

theorem off2 : (![0, 0] : Fin 2 → Nat) = fun _ => 0 := funext fun a => by fin_cases a <;> rfl
theorem off3 : (![0, 0, 0] : Fin 3 → Nat) = fun _ => 0 := funext fun a => by fin_cases a <;> rfl

/-- A middle point: the carried total plus this point's tile total. -/
theorem middle (c : Dev nD) (i : grid0.Coords) (arg2 : Memref sig .tc .vmem S1x1 .f32) (harg2 : arg2.IsWhole) (arg3 : Memref sig .tc .vmem S32x128x1 .f32) (harg3 : arg3.IsWhole) (arg4 : Memref sig .tc .vmem S32x1x128 .f32) (harg4 : arg4.IsWhole) (arg5 : Memref sig .tc .vmem S32x128x1 .f32) (harg5 : arg5.IsWhole) (arg6 : Memref sig .tc .vmem S32x1x128 .f32) (harg6 : arg6.IsWhole) (arg7 : Memref sig .tc .vmem S1x1 .f32) (harg7 : arg7.IsWhole) (hc0 : ¬cond0_0 i) (hc1 : ¬cond0_1 i)
    (x0 : Vec F S1x1 .f32) (x1 : Vec F S32x128x1 .f32) (x2 : Vec F S32x1x128 .f32) (x3 : Vec F S32x128x1 .f32) (x4 : Vec F S32x1x128 .f32) (xo5 : Vec F S1x1 .f32) :
    out0_B_5 c i arg2 harg2 arg3 harg3 arg4 harg4 arg5 harg5 arg6 harg6 arg7 harg7 hc0 hc1 x0 x1 x2 x3 x4 xo5 = k0_pay3 x1 x2 x3 x4 x0 xo5 := by
  unfold out0_B_5
  rw [View.read_writes_eq_canon _ _ _ (cover0_B_5 c i arg2 harg2 arg3 harg3 arg4 harg4 arg5 harg5 arg6 harg6 arg7 harg7 hc0 hc1 x0 x1 x2 x3 x4 xo5)]
  unfold kernelRun0_B
  dsimp only
  sl_unfold_words
  rw [View.canon_unit_zero off2]
  simp only [View.readAt_eq_ld, harg2.read_unread, harg3.read_unread, harg4.read_unread, harg5.read_unread, harg6.read_unread,
    harg7.read_unread, View.ld_unit_zero (S := S1x1) off2, View.ld_unit_zero (S := S32x128x1) off3,
    View.ld_unit_zero (S := S32x1x128) off3]

/-- The first point: zero plus this point's tile total. -/
theorem first (c : Dev nD) (i : grid0.Coords) (arg2 : Memref sig .tc .vmem S1x1 .f32) (harg2 : arg2.IsWhole) (arg3 : Memref sig .tc .vmem S32x128x1 .f32) (harg3 : arg3.IsWhole) (arg4 : Memref sig .tc .vmem S32x1x128 .f32) (harg4 : arg4.IsWhole) (arg5 : Memref sig .tc .vmem S32x128x1 .f32) (harg5 : arg5.IsWhole) (arg6 : Memref sig .tc .vmem S32x1x128 .f32) (harg6 : arg6.IsWhole) (arg7 : Memref sig .tc .vmem S1x1 .f32) (harg7 : arg7.IsWhole) (hc0 : cond0_0 i) (hc1 : ¬cond0_1 i)
    (x0 : Vec F S1x1 .f32) (x1 : Vec F S32x128x1 .f32) (x2 : Vec F S32x1x128 .f32) (x3 : Vec F S32x128x1 .f32) (x4 : Vec F S32x1x128 .f32) :
    out0_A_5 c i arg2 harg2 arg3 harg3 arg4 harg4 arg5 harg5 arg6 harg6 arg7 harg7 hc0 hc1 x0 x1 x2 x3 x4 = k0_pay3 x1 x2 x3 x4 x0 (k0_pay2 (F := F)) := by
  unfold out0_A_5
  rw [View.read_writes_eq_canon _ _ _ (cover0_A_5 c i arg2 harg2 arg3 harg3 arg4 harg4 arg5 harg5 arg6 harg6 arg7 harg7 hc0 hc1 x0 x1 x2 x3 x4)]
  unfold kernelRun0_A
  dsimp only
  sl_unfold_words
  rw [View.canon_cons_unit_zero (S := S1x1) off2, View.readCov_unit_zero (S := S1x1) _ off2]
  simp only [View.readAt_eq_ld, harg2.read_unread, harg3.read_unread, harg4.read_unread, harg5.read_unread, harg6.read_unread,
    harg7.read_unread, View.ld_unit_zero (S := S1x1) off2, View.ld_unit_zero (S := S32x128x1) off3,
    View.ld_unit_zero (S := S32x1x128) off3]

/-- The last point: the carried total plus this point's tile total, divided by 4096. -/
theorem last (c : Dev nD) (i : grid0.Coords) (arg2 : Memref sig .tc .vmem S1x1 .f32) (harg2 : arg2.IsWhole) (arg3 : Memref sig .tc .vmem S32x128x1 .f32) (harg3 : arg3.IsWhole) (arg4 : Memref sig .tc .vmem S32x1x128 .f32) (harg4 : arg4.IsWhole) (arg5 : Memref sig .tc .vmem S32x128x1 .f32) (harg5 : arg5.IsWhole) (arg6 : Memref sig .tc .vmem S32x1x128 .f32) (harg6 : arg6.IsWhole) (arg7 : Memref sig .tc .vmem S1x1 .f32) (harg7 : arg7.IsWhole) (hc0 : ¬cond0_0 i) (hc1 : cond0_1 i)
    (x0 : Vec F S1x1 .f32) (x1 : Vec F S32x128x1 .f32) (x2 : Vec F S32x1x128 .f32) (x3 : Vec F S32x128x1 .f32) (x4 : Vec F S32x1x128 .f32) (xo5 : Vec F S1x1 .f32) :
    out0_C_5 c i arg2 harg2 arg3 harg3 arg4 harg4 arg5 harg5 arg6 harg6 arg7 harg7 hc0 hc1 x0 x1 x2 x3 x4 xo5 = k0_pay1 (k0_pay3 x1 x2 x3 x4 x0 xo5) := by
  unfold out0_C_5
  rw [View.read_writes_eq_canon _ _ _ (cover0_C_5 c i arg2 harg2 arg3 harg3 arg4 harg4 arg5 harg5 arg6 harg6 arg7 harg7 hc0 hc1 x0 x1 x2 x3 x4 xo5)]
  unfold kernelRun0_C
  dsimp only
  sl_unfold_words
  rw [View.canon_cons_unit_zero (S := S1x1) off2, View.readCov_unit_zero (S := S1x1) _ off2]
  simp only [View.readAt_eq_ld, harg2.read_unread, harg3.read_unread, harg4.read_unread, harg5.read_unread, harg6.read_unread,
    harg7.read_unread, View.ld_unit_zero (S := S1x1) off2, View.ld_unit_zero (S := S32x128x1) off3,
    View.ld_unit_zero (S := S32x1x128) off3]

end Cert.KernelIdeal.CaseValues
end
-- ==== Proof.HingeSpec.lean ====
/-
  The pairwise max-margin hinge loss, as one function of the three argument arrays, on the extended reals.

  `out` and `label` hold, for each of 2048 items, 32 batch entries; `margin` is one number. For a batch row b and two items r, c
  the hinge term is max(margin − (out[r,b] − out[c,b]) · (label[r,b] − label[c,b]), 0); the loss is the sum of the terms over all
  32 · 2048 · 2048 triples, divided by 4096 (twice the number of items). Both programs compute each term by the same four float
  operations, so the term is kept as one opaque scalar function of the five numbers it reads: nothing below depends on what
  subtraction, multiplication or maximum do at infinities.
-/
import Idealize.ShloMosaic.PureOps.Ideal
import Idealize.ShloMosaic.Lib.ValueIdx

noncomputable section

namespace Cert.PairHinge

open Idealize.ShloMosaic Idealize.ShloMosaic.ValueIdx

/-- An [items, batch] array of extended reals. -/
abbrev Items : Type := (⟨2, ![2048, 32]⟩ : Shape).Idx → Ideal .f32

/-- One hinge term from the five numbers it reads: the margin, the two scores, the two labels. -/
def hinge (mg a a' l l' : Ideal .f32) : Ideal .f32 :=
  FloatOps.maximumf (FloatOps.subf mg (FloatOps.mulf (FloatOps.subf a a') (FloatOps.subf l l'))) (FloatOps.ofBits .f32 0x00000000#32)

/-- The term of batch row `b` and items `r`, `c`. -/
def term (O L : Items) (mg : Ideal .f32) (b : Fin 32) (r c : Fin 2048) : Ideal .f32 :=
  hinge mg (O (ix2 r b)) (O (ix2 c b)) (L (ix2 r b)) (L (ix2 c b))

/-- The sum of all terms. -/
def total (O L : Items) (mg : Ideal .f32) : Ideal .f32 :=
  ∑ b : Fin 32, ∑ r : Fin 2048, ∑ c : Fin 2048, term O L mg b r c

/-- The loss: the total over 4096 (the literal both programs divide by; on the extended reals both divisions are `Ideal.div`). -/
def loss (O L : Items) (mg : Ideal .f32) : Ideal .f32 :=
  Ideal.div (total O L mg) (Ideal.ofBits .f32 0x45800000#32)

end Cert.PairHinge

end
-- ==== Proof.TileTotal.lean ====
/-
  One grid point's contribution, on the extended reals.

  At a grid point the body holds a [32, 128, 1] block of scores and of labels for the row tile (entry (b, p, 0): batch row b, offset
  p), a [32, 1, 128] block of each for the column tile (entry (b, 0, q)), and the margin. It broadcasts both to [32, 128, 128],
  forms the hinge term at every (b, p, q), adds over the lanes q, then over the batch rows b, then over the sublanes p, and adds
  the result to the running total it carries. On the extended reals each of the three reductions is the plain sum over its axis,
  so what the point leaves is the carried total plus the triple sum of the tile pair's hinge terms.
-/
import proofs.«156828_j21775484190872_2_alg».proof.Proof.Gen.KernelIdeal.Skeleton
import proofs.«156828_j21775484190872_2_alg».proof.Proof.HingeSpec
import Idealize.ShloMosaic.PureOps.Ideal.Laws
import Idealize.ShloMosaic.Lib.Pipeline.Value
import Idealize.ShloMosaic.Lib.ValueIdx

noncomputable section

namespace Cert.KernelIdeal.TileTotal

open Cert.KernelIdeal Cert.KernelIdeal.Gen Idealize.ShloMosaic Idealize.ShloMosaic.ValueIdx
open Cert.PairHinge (hinge)

/-! ## The three sums, each over one axis -/

/-- The sum over the lanes: entry (b, p) is the sum over q of the entries (b, p, q). -/
theorem lane_sum (v : FVec Ideal S32x128x128 .f32) (hφ : FKind.Formats .f32)
    (hacc : (0x00000000#32 : BitVec 32) = 0x00000000#32) (b : Fin 32) (p : Fin 128) :
    multiReduction .add [2] S32x128 v 0x00000000#32 reduces_S32x128x128_S32x128 hφ hacc (ix2 b p)
      = ∑ q : Fin 128, v (ix3 b p q) :=
  (Ideal.multiReduction_add_single v _ reduces_S32x128x128_S32x128 hφ hacc (ix2 b p)).trans
    (Finset.sum_congr rfl fun q _ => congrArg v (funext fun a => by
      match a with | ⟨0, _⟩ => rfl | ⟨1, _⟩ => rfl | ⟨2, _⟩ => rfl))

/-- The sum over the batch rows: entry p is the sum over b of the entries (b, p). -/
theorem batch_sum (v : FVec Ideal S32x128 .f32) (hφ : FKind.Formats .f32)
    (hacc : (0x00000000#32 : BitVec 32) = 0x00000000#32) (p : Fin 128) :
    multiReduction .add [0] S128 v 0x00000000#32 reduces_S32x128_S128 hφ hacc (ix1 p)
      = ∑ b : Fin 32, v (ix2 b p) :=
  (Ideal.multiReduction_add_single v _ reduces_S32x128_S128 hφ hacc (ix1 p)).trans
    (Finset.sum_congr rfl fun b _ => congrArg v (funext fun a => by
      match a with | ⟨0, _⟩ => rfl | ⟨1, _⟩ => rfl))

/-- The sum over the sublanes of a one-row array: its one entry is the sum over p of the entries (0, p). -/
theorem sublane_sum (v : FVec Ideal S1x128 .f32) (hφ : FKind.Formats .f32)
    (hacc : (0x00000000#32 : BitVec 32) = 0x00000000#32) :
    multiReduction .add [1] S1 v 0x00000000#32 reduces_S1x128_S1 hφ hacc (ix1 (0 : Fin 1))
      = ∑ p : Fin 128, v (ix2 (0 : Fin 1) p) :=
  (Ideal.multiReduction_add_single v _ reduces_S1x128_S1 hφ hacc (ix1 (0 : Fin 1))).trans
    (Finset.sum_congr rfl fun p _ => congrArg v (funext fun a => by
      match a with | ⟨0, _⟩ => rfl | ⟨1, _⟩ => rfl))

/-! ## The re-layings between them -/

/-- A row of 128 viewed as a [1, 128] array: entry (0, p) is entry p. -/
theorem as_row (v : FVec Ideal S128 .f32) (p : Fin 128) :
    shapeCast S1x128 v shapeCasts_S128_S1x128 (ix2 (0 : Fin 1) p) = v (ix1 p) :=
  (shapeCast_addUnit_apply ![128] v shapeCasts_S128_S1x128 (ix2 (0 : Fin 1) p)).trans
    (congrArg v (funext fun a => by match a with | ⟨0, _⟩ => rfl))

/-- One number viewed as a [1, 1] array. -/
theorem as_block (v : FVec Ideal S1 .f32) (y : S1x1.Idx) :
    shapeCast S1x1 v shapeCasts_S1_S1x1 y = v (ix1 (0 : Fin 1)) :=
  (shapeCast_addUnit_apply ![1] v shapeCasts_S1_S1x1 y).trans
    (congrArg v (funext fun a => by
      match a with | ⟨0, _⟩ => exact Fin.ext (Nat.lt_one_iff.mp (y 1).isLt)))

/-- A [32, 128, 1] block broadcast along the lanes: entry (b, p, q) is entry (b, p, 0). -/
theorem along_lanes (v : FVec Ideal S32x128x1 .f32) (b : Fin 32) (p q : Fin 128) :
    broadcastTo S32x128x128 v broadcasts_S32x128x1_S32x128x128 (ix3 b p q) = v (ix3 b p (0 : Fin 1)) :=
  broadcastTo_apply v broadcasts_S32x128x1_S32x128x128 (ix3 b p q) (ix3 b p (0 : Fin 1)) (fun a => by
    match a with
    | ⟨0, _⟩ => show b.val = if (32 : Nat) = 1 then 0 else b.val; rw [if_neg (by decide)]
    | ⟨1, _⟩ => show p.val = if (128 : Nat) = 1 then 0 else p.val; rw [if_neg (by decide)]
    | ⟨2, _⟩ => show (0 : Nat) = if (1 : Nat) = 1 then 0 else q.val; rw [if_pos rfl])

/-- A [32, 1, 128] block broadcast along the sublanes: entry (b, p, q) is entry (b, 0, q). -/
theorem along_sublanes (v : FVec Ideal S32x1x128 .f32) (b : Fin 32) (p q : Fin 128) :
    broadcastTo S32x128x128 v broadcasts_S32x1x128_S32x128x128 (ix3 b p q) = v (ix3 b (0 : Fin 1) q) :=
  broadcastTo_apply v broadcasts_S32x1x128_S32x128x128 (ix3 b p q) (ix3 b (0 : Fin 1) q) (fun a => by
    match a with
    | ⟨0, _⟩ => show b.val = if (32 : Nat) = 1 then 0 else b.val; rw [if_neg (by decide)]
    | ⟨1, _⟩ => show (0 : Nat) = if (1 : Nat) = 1 then 0 else p.val; rw [if_pos rfl]
    | ⟨2, _⟩ => show q.val = if (128 : Nat) = 1 then 0 else q.val; rw [if_neg (by decide)])

/-- The margin block's one entry. -/
theorem the_margin (x0 : FVec Ideal S1x1 .f32) :
    extractAt ![0, 0] x0 inpos_S1x1_p0_0 = x0 (ix2 (0 : Fin 1) (0 : Fin 1)) :=
  congrArg x0 (funext fun a => by match a with | ⟨0, _⟩ => rfl | ⟨1, _⟩ => rfl)

/-! ## The tile pair's hinge terms and the point's contribution -/

/-- The [32, 128, 128] array of hinge terms the body forms from its five blocks, as the body writes it. -/
def terms (x0 : FVec Ideal S1x1 .f32) (x1 x3 : FVec Ideal S32x128x1 .f32) (x2 x4 : FVec Ideal S32x1x128 .f32) :
    FVec Ideal S32x128x128 .f32 :=
  maximumf
    (subf (broadcast S32x128x128 (extractAt ![0, 0] x0 inpos_S1x1_p0_0))
      (mulf
        (subf (broadcastTo S32x128x128 (shapeCast S32x128x1 x1 shapeCasts_S32x128x1_S32x128x1) broadcasts_S32x128x1_S32x128x128)
          (broadcastTo S32x128x128 (shapeCast S32x1x128 x2 shapeCasts_S32x1x128_S32x1x128) broadcasts_S32x1x128_S32x128x128))
        (subf (broadcastTo S32x128x128 (shapeCast S32x128x1 x3 shapeCasts_S32x128x1_S32x128x1) broadcasts_S32x128x1_S32x128x128)
          (broadcastTo S32x128x128 (shapeCast S32x1x128 x4 shapeCasts_S32x1x128_S32x1x128) broadcasts_S32x1x128_S32x128x128))))
    (broadcast S32x128x128 (FloatOps.ofBits .f32 0x00000000#32))

/-- Entry (b, p, q) of it is the hinge term of the margin, the row blocks at (b, p, 0) and the column blocks at (b, 0, q). -/
theorem terms_apply (x0 : FVec Ideal S1x1 .f32) (x1 x3 : FVec Ideal S32x128x1 .f32) (x2 x4 : FVec Ideal S32x1x128 .f32)
    (b : Fin 32) (p q : Fin 128) :
    terms x0 x1 x3 x2 x4 (ix3 b p q)
      = hinge (x0 (ix2 (0 : Fin 1) (0 : Fin 1))) (x1 (ix3 b p (0 : Fin 1))) (x2 (ix3 b (0 : Fin 1) q))
          (x3 (ix3 b p (0 : Fin 1))) (x4 (ix3 b (0 : Fin 1) q)) := by
  unfold terms
  rw [shapeCast_self, shapeCast_self, shapeCast_self, shapeCast_self]
  show FloatOps.maximumf (FloatOps.subf (extractAt ![0, 0] x0 inpos_S1x1_p0_0)
      (FloatOps.mulf
        (FloatOps.subf (broadcastTo S32x128x128 x1 broadcasts_S32x128x1_S32x128x128 (ix3 b p q))
          (broadcastTo S32x128x128 x2 broadcasts_S32x1x128_S32x128x128 (ix3 b p q)))
        (FloatOps.subf (broadcastTo S32x128x128 x3 broadcasts_S32x128x1_S32x128x128 (ix3 b p q))
          (broadcastTo S32x128x128 x4 broadcasts_S32x1x128_S32x128x128 (ix3 b p q)))))
      (FloatOps.ofBits .f32 0x00000000#32) = _
  rw [along_lanes, along_sublanes, along_lanes, along_sublanes, the_margin]
  rfl

/-- THE POINT'S CONTRIBUTION: what the accumulating store writes is the carried total plus the sum, over the sublanes p, the batch
    rows b and the lanes q, of the tile pair's hinge terms. -/
theorem carried_plus_tile (x1 x3 : FVec Ideal S32x128x1 .f32) (x2 x4 : FVec Ideal S32x1x128 .f32) (x0 acc : FVec Ideal S1x1 .f32)
    (y : S1x1.Idx) :
    k0_pay3 (F := Ideal) x1 x2 x3 x4 x0 acc y
      = acc y + ∑ p : Fin 128, ∑ b : Fin 32, ∑ q : Fin 128,
          hinge (x0 (ix2 (0 : Fin 1) (0 : Fin 1))) (x1 (ix3 b p (0 : Fin 1))) (x2 (ix3 b (0 : Fin 1) q))
            (x3 (ix3 b p (0 : Fin 1))) (x4 (ix3 b (0 : Fin 1) q)) := by
  show shapeCast S1x1 acc shapeCasts_S1x1_S1x1 y
      + shapeCast S1x1 (multiReduction .add [1] S1 (shapeCast S1x128 (multiReduction .add [0] S128
          (multiReduction .add [2] S32x128 (terms x0 x1 x3 x2 x4) 0x00000000#32 reduces_S32x128x128_S32x128 _ _)
          0x00000000#32 reduces_S32x128_S128 _ _) shapeCasts_S128_S1x128) 0x00000000#32 reduces_S1x128_S1 _ _) shapeCasts_S1_S1x1 y = _
  rw [shapeCast_self, as_block]
  refine congrArg (acc y + ·) ?_
  refine (sublane_sum _ _ _).trans (Finset.sum_congr rfl fun p _ => ?_)
  refine (as_row _ p).trans ?_
  refine (batch_sum _ _ _ p).trans (Finset.sum_congr rfl fun b _ => ?_)
  refine (lane_sum _ _ _ b p).trans (Finset.sum_congr rfl fun q _ => ?_)
  exact terms_apply x0 x1 x3 x2 x4 b p q

end Cert.KernelIdeal.TileTotal

end
-- ==== Proof.Blocks.lean ====
/-
  What the body's input blocks hold, as entries of the argument arrays.

  Before the grid runs, the host transposes `out` and `label` to [32, 2048] and views each both as a column array [32, 2048, 1]
  and as a row array [32, 1, 2048]; the margin becomes a [1, 1] array. Grid point t works on row tile t / 16 and column tile
  t % 16: its row blocks are the 128 columns-of-one starting at item 128 · (t / 16), its column blocks the 128 lanes starting at
  item 128 · (t % 16). So entry (b, p, 0) of a row block is the argument at item 128 · (t / 16) + p, batch entry b, and entry
  (b, 0, q) of a column block the argument at item 128 · (t % 16) + q, batch entry b. Stated for any float instance.
-/
import proofs.«156828_j21775484190872_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-! ## Which tile each window is on -/

/-- The block indices at grid point `t`, decided over the 256 points: the row windows are on tile `t / 16` of their item axis,
    the column windows on tile `t % 16`, the margin window stays put. -/
theorem tiles : ∀ t : Fin cfg0.N,
    (win0_0.index t (0 : Fin 2) = 0 ∧ win0_0.index t (1 : Fin 2) = 0)
    ∧ (win0_1.index t (0 : Fin 3) = 0 ∧ win0_1.index t (1 : Fin 3) = t.val / 16 ∧ win0_1.index t (2 : Fin 3) = 0)
    ∧ (win0_2.index t (0 : Fin 3) = 0 ∧ win0_2.index t (1 : Fin 3) = 0 ∧ win0_2.index t (2 : Fin 3) = t.val % 16)
    ∧ (win0_3.index t (0 : Fin 3) = 0 ∧ win0_3.index t (1 : Fin 3) = t.val / 16 ∧ win0_3.index t (2 : Fin 3) = 0)
    ∧ (win0_4.index t (0 : Fin 3) = 0 ∧ win0_4.index t (1 : Fin 3) = 0 ∧ win0_4.index t (2 : Fin 3) = t.val % 16) :=
  (by decide +kernel : ∀ t : Fin grid0.N, _)

/-! ## The arrays the host leaves for the grid -/

/-- A [2048, 32] array transposed and viewed as a column array: entry (b, r, 0) is entry (r, b). -/
theorem column_view {α : Type} (x : S2048x32.Idx → α) (b : Fin 32) (r : Fin 2048) :
    broadcastInDim S32x2048x1 ![0, 1] bcast_S32x2048_S32x2048x1_0_1 (transpose S32x2048 [1, 0] x transposes_S2048x32_S32x2048_1_0)
      (ix3 b r (0 : Fin 1)) = x (ix2 r b) :=
  (broadcastInDim_apply _ bcast_S32x2048_S32x2048x1_0_1 _ (ix3 b r (0 : Fin 1)) (ix2 b r) (fun a => by
    match a with
    | ⟨0, _⟩ => show b.val = if (32 : Nat) = 1 then 0 else b.val; rw [if_neg (by decide)]
    | ⟨1, _⟩ => show r.val = if (2048 : Nat) = 1 then 0 else r.val; rw [if_neg (by decide)])).trans
  (transpose_apply [1, 0] x transposes_S2048x32_S32x2048_1_0 (ix2 b r) (ix2 r b) (fun a => by
    match a with | ⟨0, _⟩ => rfl | ⟨1, _⟩ => rfl))

/-- The same array viewed as a row array: entry (b, 0, r) is entry (r, b). -/
theorem row_view {α : Type} (x : S2048x32.Idx → α) (b : Fin 32) (r : Fin 2048) :
    broadcastInDim S32x1x2048 ![0, 2] bcast_S32x2048_S32x1x2048_0_2 (transpose S32x2048 [1, 0] x transposes_S2048x32_S32x2048_1_0)
      (ix3 b (0 : Fin 1) r) = x (ix2 r b) :=
  (broadcastInDim_apply _ bcast_S32x2048_S32x1x2048_0_2 _ (ix3 b (0 : Fin 1) r) (ix2 b r) (fun a => by
    match a with
    | ⟨0, _⟩ => show b.val = if (32 : Nat) = 1 then 0 else b.val; rw [if_neg (by decide)]
    | ⟨1, _⟩ => show r.val = if (2048 : Nat) = 1 then 0 else r.val; rw [if_neg (by decide)])).trans
  (transpose_apply [1, 0] x transposes_S2048x32_S32x2048_1_0 (ix2 b r) (ix2 r b) (fun a => by
    match a with | ⟨0, _⟩ => rfl | ⟨1, _⟩ => rfl))

/-- The column array of `out` as the grid finds it. -/
theorem found_v2 (c : Dev nD) : (V m c main_v2 : S32x2048x1.Idx → F .f32)
    = broadcastInDim S32x2048x1 ![0, 1] bcast_S32x2048_S32x2048x1_0_1
        (transpose S32x2048 [1, 0] (m ((c : Thread nD τ).loc main_arg0)) transposes_S2048x32_S32x2048_1_0) := by
  show StableHlo.after hostOps0 (fun b => m (c, b)) (Proc.devRef .tc main_v2) = _
  after_results

/-- The row array of `out`. -/
theorem found_v3 (c : Dev nD) : (V m c main_v3 : S32x1x2048.Idx → F .f32)
    = broadcastInDim S32x1x2048 ![0, 2] bcast_S32x2048_S32x1x2048_0_2
        (transpose S32x2048 [1, 0] (m ((c : Thread nD τ).loc main_arg0)) transposes_S2048x32_S32x2048_1_0) := by
  show StableHlo.after hostOps0 (fun b => m (c, b)) (Proc.devRef .tc main_v3) = _
  after_results

/-- The column array of `label`. -/
theorem found_v4 (c : Dev nD) : (V m c main_v4 : S32x2048x1.Idx → F .f32)
    = broadcastInDim S32x2048x1 ![0, 1] bcast_S32x2048_S32x2048x1_0_1
        (transpose S32x2048 [1, 0] (m ((c : Thread nD τ).loc main_arg1)) transposes_S2048x32_S32x2048_1_0) := by
  show StableHlo.after hostOps0 (fun b => m (c, b)) (Proc.devRef .tc main_v4) = _
  after_results

/-- The row array of `label`. -/
theorem found_v5 (c : Dev nD) : (V m c main_v5 : S32x1x2048.Idx → F .f32)
    = broadcastInDim S32x1x2048 ![0, 2] bcast_S32x2048_S32x1x2048_0_2
        (transpose S32x2048 [1, 0] (m ((c : Thread nD τ).loc main_arg1)) transposes_S2048x32_S32x2048_1_0) := by
  show StableHlo.after hostOps0 (fun b => m (c, b)) (Proc.devRef .tc main_v5) = _
  after_results

/-- The margin as a [1, 1] array. -/
theorem found_v6 (c : Dev nD) : (V m c main_v6 : S1x1.Idx → F .f32)
    = shapeCast S1x1 (m ((c : Thread nD τ).loc main_arg2)) shapeCasts_S_S1x1 := by
  show StableHlo.after hostOps0 (fun b => m (c, b)) (Proc.devRef .tc main_v6) = _
  after_results
  rfl

/-- A scalar viewed as a [1, 1] array holds the scalar. -/
theorem scalar_view {α : Type} (x : S_.Idx → α) (y : S1x1.Idx) : shapeCast S1x1 x shapeCasts_S_S1x1 y = x ix0 :=
  congrArg x (eq_ix0 _)

/-! ## The blocks -/

/-- Item `128 · k + p` for a tile number `k` known to be below 16. -/
def item (k : Nat) (hk : k < 16) (p : Fin 128) : Fin 2048 := ⟨128 * k + p.val, by have := p.isLt; omega⟩

theorem row_tile_lt (t : Fin cfg0.N) : t.val / 16 < 16 := by
  have := lt_of_lt_of_eq t.isLt (show cfg0.N = 256 from N_0); omega
theorem col_tile_lt (t : Fin cfg0.N) : t.val % 16 < 16 := Nat.mod_lt _ (by decide)

/-- Entry (b, p, 0) of the `out` row-tile block at point `t`. -/
theorem out_rows (c : Dev nD) (t : Fin cfg0.N) (b : Fin 32) (p : Fin 128) :
    (iblk m c 1 t : Vec F S32x128x1 .f32) (ix3 b p (0 : Fin 1))
      = m ((c : Thread nD τ).loc main_arg0) (ix2 (item (t.val / 16) (row_tile_lt t) p) b) := by
  obtain ⟨-, ⟨h0, h1, h2⟩, -, -, -⟩ := tiles t
  refine Eq.trans ?_ (column_view (m ((c : Thread nD τ).loc main_arg0)) b (item (t.val / 16) (row_tile_lt t) p))
  rw [← found_v2 m c]
  unfold iblk
  rw [View.read_apply]
  show V m c main_v2 _ = V m c main_v2 _
  refine congrArg (V m c main_v2) (funext fun a => Fin.ext ?_)
  match a with
  | ⟨0, _⟩ => show win0_1.index t (0 : Fin 3) * 32 + 1 * b.val = b.val; rw [h0]; omega
  | ⟨1, _⟩ => show win0_1.index t (1 : Fin 3) * 128 + 1 * p.val = 128 * (t.val / 16) + p.val; rw [h1]; omega
  | ⟨2, _⟩ => show win0_1.index t (2 : Fin 3) * 1 + 1 * 0 = 0; rw [h2]

/-- Entry (b, 0, q) of the `out` column-tile block at point `t`. -/
theorem out_cols (c : Dev nD) (t : Fin cfg0.N) (b : Fin 32) (q : Fin 128) :
    (iblk m c 2 t : Vec F S32x1x128 .f32) (ix3 b (0 : Fin 1) q)
      = m ((c : Thread nD τ).loc main_arg0) (ix2 (item (t.val % 16) (col_tile_lt t) q) b) := by
  obtain ⟨-, -, ⟨h0, h1, h2⟩, -, -⟩ := tiles t
  refine Eq.trans ?_ (row_view (m ((c : Thread nD τ).loc main_arg0)) b (item (t.val % 16) (col_tile_lt t) q))
  rw [← found_v3 m c]
  unfold iblk
  rw [View.read_apply]
  show V m c main_v3 _ = V m c main_v3 _
  refine congrArg (V m c main_v3) (funext fun a => Fin.ext ?_)
  match a with
  | ⟨0, _⟩ => show win0_2.index t (0 : Fin 3) * 32 + 1 * b.val = b.val; rw [h0]; omega
  | ⟨1, _⟩ => show win0_2.index t (1 : Fin 3) * 1 + 1 * 0 = 0; rw [h1]
  | ⟨2, _⟩ => show win0_2.index t (2 : Fin 3) * 128 + 1 * q.val = 128 * (t.val % 16) + q.val; rw [h2]; omega

/-- Entry (b, p, 0) of the `label` row-tile block at point `t`. -/
theorem label_rows (c : Dev nD) (t : Fin cfg0.N) (b : Fin 32) (p : Fin 128) :
    (iblk m c 3 t : Vec F S32x128x1 .f32) (ix3 b p (0 : Fin 1))
      = m ((c : Thread nD τ).loc main_arg1) (ix2 (item (t.val / 16) (row_tile_lt t) p) b) := by
  obtain ⟨-, -, -, ⟨h0, h1, h2⟩, -⟩ := tiles t
  refine Eq.trans ?_ (column_view (m ((c : Thread nD τ).loc main_arg1)) b (item (t.val / 16) (row_tile_lt t) p))
  rw [← found_v4 m c]
  unfold iblk
  rw [View.read_apply]
  show V m c main_v4 _ = V m c main_v4 _
  refine congrArg (V m c main_v4) (funext fun a => Fin.ext ?_)
  match a with
  | ⟨0, _⟩ => show win0_3.index t (0 : Fin 3) * 32 + 1 * b.val = b.val; rw [h0]; omega
  | ⟨1, _⟩ => show win0_3.index t (1 : Fin 3) * 128 + 1 * p.val = 128 * (t.val / 16) + p.val; rw [h1]; omega
  | ⟨2, _⟩ => show win0_3.index t (2 : Fin 3) * 1 + 1 * 0 = 0; rw [h2]

/-- Entry (b, 0, q) of the `label` column-tile block at point `t`. -/
theorem label_cols (c : Dev nD) (t : Fin cfg0.N) (b : Fin 32) (q : Fin 128) :
    (iblk m c 4 t : Vec F S32x1x128 .f32) (ix3 b (0 : Fin 1) q)
      = m ((c : Thread nD τ).loc main_arg1) (ix2 (item (t.val % 16) (col_tile_lt t) q) b) := by
  obtain ⟨-, -, -, -, ⟨h0, h1, h2⟩⟩ := tiles t
  refine Eq.trans ?_ (row_view (m ((c : Thread nD τ).loc main_arg1)) b (item (t.val % 16) (col_tile_lt t) q))
  rw [← found_v5 m c]
  unfold iblk
  rw [View.read_apply]
  show V m c main_v5 _ = V m c main_v5 _
  refine congrArg (V m c main_v5) (funext fun a => Fin.ext ?_)
  match a with
  | ⟨0, _⟩ => show win0_4.index t (0 : Fin 3) * 32 + 1 * b.val = b.val; rw [h0]; omega
  | ⟨1, _⟩ => show win0_4.index t (1 : Fin 3) * 1 + 1 * 0 = 0; rw [h1]
  | ⟨2, _⟩ => show win0_4.index t (2 : Fin 3) * 128 + 1 * q.val = 128 * (t.val % 16) + q.val; rw [h2]; omega

/-- The margin block's one entry at any point: the margin. -/
theorem the_margin (c : Dev nD) (t : Fin cfg0.N) :
    (iblk m c 0 t : Vec F S1x1 .f32) (ix2 (0 : Fin 1) (0 : Fin 1)) = m ((c : Thread nD τ).loc main_arg2) ix0 := by
  obtain ⟨⟨h0, h1⟩, -, -, -, -⟩ := tiles t
  refine Eq.trans ?_ (scalar_view (m ((c : Thread nD τ).loc main_arg2)) (ix2 (0 : Fin 1) (0 : Fin 1)))
  rw [← found_v6 m c]
  unfold iblk
  rw [View.read_apply]
  show V m c main_v6 _ = V m c main_v6 _
  refine congrArg (V m c main_v6) (funext fun a => Fin.ext ?_)
  match a with
  | ⟨0, _⟩ => show win0_0.index t (0 : Fin 2) * 1 + 1 * 0 = 0; rw [h0]
  | ⟨1, _⟩ => show win0_0.index t (1 : Fin 2) * 1 + 1 * 0 = 0; rw [h1]

end Cert.KernelIdeal.Blocks

end
-- ==== Proof.SumRegroup.lean ====
/-
  Regrouping a finite sum in a commutative additive monoid.

  The pairwise hinge loss adds one term for every triple (b, r, c) of a batch row and two item positions, 32 · 2048 · 2048 of them.
  One program adds all of them in one sweep. The other cuts both item axes into 16 tiles of 128 positions; for a pair of tiles
  (i, j) it adds the terms lane by lane (over c inside tile j), then over the batch rows, then over the sublanes (over r inside
  tile i), and it visits the 256 tile pairs in row-major order, point t being the pair (t / 16, t % 16). Addition in a commutative
  monoid does not care: position r is 128 · i + p for exactly one tile i and one offset p, point t is 16 · i + j for exactly one
  pair, and sums over independent indices commute. Nothing here mentions floats or infinities; the extended reals are such a monoid.
-/
import Mathlib.Algebra.BigOperators.Fin
import Mathlib.Algebra.BigOperators.Group.Finset.Sigma
import Mathlib.Data.Fintype.BigOperators

namespace PairTiles

open Finset

variable {M : Type*} [AddCommMonoid M]

/-- Position `p` of tile `k`: item `128 · k + p`. -/
def pos (k : Fin 16) (p : Fin 128) : Fin 2048 := ⟨128 * k.val + p.val, by have := k.isLt; have := p.isLt; omega⟩

/-- Every item position is one offset inside one tile. -/
def posEquiv : Fin 16 × Fin 128 ≃ Fin 2048 where
  toFun x := pos x.1 x.2
  invFun r := (⟨r.val / 128, by have := r.isLt; omega⟩, ⟨r.val % 128, Nat.mod_lt _ (by decide)⟩)
  left_inv x := by
    obtain ⟨k, p⟩ := x
    have hk := k.isLt; have hp := p.isLt
    apply Prod.ext <;> apply Fin.ext <;> simp only [pos] <;> omega
  right_inv r := by
    apply Fin.ext; simp only [pos]; omega

/-- A sum over the 2048 item positions, tile by tile. -/
theorem sum_pos (g : Fin 2048 → M) : ∑ r, g r = ∑ k : Fin 16, ∑ p : Fin 128, g (pos k p) := by
  rw [← posEquiv.sum_comp g, Fintype.sum_prod_type]
  rfl

/-- The tile of the row axis that grid point `t` works on, and the tile of the column axis. -/
def rowTile (t : Fin 256) : Fin 16 := ⟨t.val / 16, by have := t.isLt; omega⟩
def colTile (t : Fin 256) : Fin 16 := ⟨t.val % 16, Nat.mod_lt _ (by decide)⟩

/-- Every grid point is one pair of tiles, in row-major order. -/
def pointEquiv : Fin 16 × Fin 16 ≃ Fin 256 where
  toFun x := ⟨16 * x.1.val + x.2.val, by have := x.1.isLt; have := x.2.isLt; omega⟩
  invFun t := (rowTile t, colTile t)
  left_inv x := by
    obtain ⟨i, j⟩ := x
    have hi := i.isLt; have hj := j.isLt
    apply Prod.ext <;> apply Fin.ext <;> simp only [rowTile, colTile] <;> omega
  right_inv t := by
    apply Fin.ext; simp only [rowTile, colTile]; omega

/-- A sum over the 256 grid points is the double sum over the tile pairs. -/
theorem sum_points (g : Fin 16 → Fin 16 → M) :
    ∑ t : Fin 256, g (rowTile t) (colTile t) = ∑ i : Fin 16, ∑ j : Fin 16, g i j := by
  exact (pointEquiv.symm.sum_comp (fun x : Fin 16 × Fin 16 => g x.1 x.2)).trans
    (Fintype.sum_prod_type (fun x : Fin 16 × Fin 16 => g x.1 x.2))

/-- Five independent indices: the order (i, j, p, b, q) the tiled program adds in, against the order (b, i, p, j, q). -/
theorem sum_reorder {I J P B Q : Type*} [Fintype I] [Fintype J] [Fintype P] [Fintype B] [Fintype Q]
    (h : I → J → P → B → Q → M) :
    ∑ i, ∑ j, ∑ p, ∑ b, ∑ q, h i j p b q = ∑ b, ∑ i, ∑ p, ∑ j, ∑ q, h i j p b q :=
  calc ∑ i, ∑ j, ∑ p, ∑ b, ∑ q, h i j p b q
      = ∑ i, ∑ p, ∑ j, ∑ b, ∑ q, h i j p b q := sum_congr rfl fun _ _ => sum_comm
    _ = ∑ i, ∑ p, ∑ b, ∑ j, ∑ q, h i j p b q := sum_congr rfl fun _ _ => sum_congr rfl fun _ _ => sum_comm
    _ = ∑ i, ∑ b, ∑ p, ∑ j, ∑ q, h i j p b q := sum_congr rfl fun _ _ => sum_comm
    _ = ∑ b, ∑ i, ∑ p, ∑ j, ∑ q, h i j p b q := sum_comm

/-- THE LAW: the tile pairs' totals, each added sublane by sublane, batch row by batch row, lane by lane, add up to the sum
    over all triples. -/
theorem sum_tiles (f : Fin 32 → Fin 2048 → Fin 2048 → M) :
    ∑ t : Fin 256, ∑ p : Fin 128, ∑ b : Fin 32, ∑ q : Fin 128, f b (pos (rowTile t) p) (pos (colTile t) q)
      = ∑ b : Fin 32, ∑ r : Fin 2048, ∑ c : Fin 2048, f b r c := by
  rw [sum_points (fun i j => ∑ p : Fin 128, ∑ b : Fin 32, ∑ q : Fin 128, f b (pos i p) (pos j q)),
    sum_reorder (fun i j p b q => f b (pos i p) (pos j q))]
  refine sum_congr rfl fun b _ => ?_
  rw [sum_pos (fun r => ∑ c : Fin 2048, f b r c)]
  refine sum_congr rfl fun i _ => sum_congr rfl fun p _ => ?_
  rw [sum_pos (fun c => f b (pos i p) c)]

end PairTiles
-- ==== Proof.Running.lean ====
/-
  The running total across the grid, on the extended reals.

  Point 0 leaves zero plus its tile pair's total; every later point adds its tile pair's total to what the point before left; the
  last point, 255, then divides by 4096. So after point 254 the block holds the sum of the first 255 tile totals, and after point
  255 the sum of all 256 divided by 4096. Each tile total is the triple sum of the hinge terms of its tile pair, read off the
  argument arrays, and the 256 of them regroup to the sum over all triples: the block ends holding the loss.
-/
import proofs.«156828_j21775484190872_2_alg».proof.Proof.CaseValues
import proofs.«156828_j21775484190872_2_alg».proof.Proof.TileTotal
import proofs.«156828_j21775484190872_2_alg».proof.Proof.Blocks
import proofs.«156828_j21775484190872_2_alg».proof.Proof.SumRegroup

set_option maxRecDepth 16384

noncomputable section

namespace Cert.KernelIdeal.Running

open Cert.KernelIdeal Cert.KernelIdeal.Gen Idealize.ShloMosaic Idealize.ShloMosaic.TcCoe Idealize.SL.Sem
open Idealize.ShloMosaic.ValueIdx Idealize.ShloMosaic.Pipeline
open Cert.PairHinge (hinge term total loss)
open PairTiles (pos rowTile colTile)

variable (m : (ℓ : Loc nD τ sig) → Buf (Elt Ideal) ℓ)

/-- The three arguments on core `c`. -/
abbrev scores (c : Dev nD) : Cert.PairHinge.Items := m ((c : Thread nD τ).loc main_arg0)
abbrev labels (c : Dev nD) : Cert.PairHinge.Items := m ((c : Thread nD τ).loc main_arg1)
abbrev margin (c : Dev nD) : Ideal .f32 := m ((c : Thread nD τ).loc main_arg2) ix0

/-- Point `n`'s tile total (zero past the grid, where it is never used). -/
def addend (c : Dev nD) (n : Nat) : Ideal .f32 :=
  if h : n < 256 then
    ∑ p : Fin 128, ∑ b : Fin 32, ∑ q : Fin 128,
      term (scores m c) (labels m c) (margin m c) b (pos (rowTile ⟨n, h⟩) p) (pos (colTile ⟨n, h⟩) q)
  else 0

/-- What the accumulating store writes at point `t`: the carried total plus the point's tile total. -/
theorem step (c : Dev nD) (t : Fin cfg0.N) (acc : FVec Ideal S1x1 .f32) (y : S1x1.Idx) :
    k0_pay3 (F := Ideal) (iblk m c 1 t) (iblk m c 2 t) (iblk m c 3 t) (iblk m c 4 t) (iblk m c 0 t) acc y = acc y + addend m c t.val := by
  have ht : t.val < 256 := lt_of_lt_of_eq t.isLt (show cfg0.N = 256 from N_0)
  refine (TileTotal.carried_plus_tile (iblk m c 1 t) (iblk m c 3 t) (iblk m c 2 t) (iblk m c 4 t) (iblk m c 0 t) acc y).trans ?_
  refine congrArg (acc y + ·) ?_
  unfold addend
  rw [dif_pos ht]
  refine Finset.sum_congr rfl fun p _ => Finset.sum_congr rfl fun b _ => Finset.sum_congr rfl fun q _ => ?_
  rw [Blocks.the_margin m c t, Blocks.out_rows m c t b p, Blocks.out_cols m c t b q, Blocks.label_rows m c t b p,
    Blocks.label_cols m c t b q]
  rfl

/-! ## The fold over the points -/

/-- What point `n` leaves when it is the first point: zero plus its tile total. -/
def start (c : Dev nD) (n : Nat) (h : n < cfg0.N) : FVec Ideal S1x1 .f32 :=
  k0_pay3 (F := Ideal) (iblk m c 1 ⟨n, h⟩) (iblk m c 2 ⟨n, h⟩) (iblk m c 3 ⟨n, h⟩) (iblk m c 4 ⟨n, h⟩) (iblk m c 0 ⟨n, h⟩) (k0_pay2 (F := Ideal))

/-- What point `n` makes of the carried total when it is not the first: it adds its tile total, and the last point divides. -/
def next (c : Dev nD) (n : Nat) (h : n < cfg0.N) (acc : FVec Ideal S1x1 .f32) : FVec Ideal S1x1 .f32 :=
  if n % 256 = 255 then k0_pay1 (F := Ideal) (k0_pay3 (F := Ideal) (iblk m c 1 ⟨n, h⟩) (iblk m c 2 ⟨n, h⟩) (iblk m c 3 ⟨n, h⟩) (iblk m c 4 ⟨n, h⟩) (iblk m c 0 ⟨n, h⟩) acc)
  else k0_pay3 (F := Ideal) (iblk m c 1 ⟨n, h⟩) (iblk m c 2 ⟨n, h⟩) (iblk m c 3 ⟨n, h⟩) (iblk m c 4 ⟨n, h⟩) (iblk m c 0 ⟨n, h⟩) acc

/-- The first point. -/
theorem at_first (c : Dev nD) (n : Nat) (h : n < cfg0.N) (h0 : n % 256 = 0) :
    outsAt0 (F := Ideal) m c n h = start m c n h :=
  (outsAt0_A m c ⟨n, h⟩ h0 (by show ¬n % 256 = 255; omega)).trans
    (CaseValues.first c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) _ _ (iblk m c 0 ⟨n, h⟩) (iblk m c 1 ⟨n, h⟩) (iblk m c 2 ⟨n, h⟩) (iblk m c 3 ⟨n, h⟩) (iblk m c 4 ⟨n, h⟩))

/-- Every later point. -/
theorem at_later (c : Dev nD) (n : Nat) (h : n + 1 < cfg0.N) (h0 : ¬(n + 1) % 256 = 0) :
    outsAt0 (F := Ideal) m c (n + 1) h = next m c (n + 1) h (outsAt0 (F := Ideal) m c n (Nat.lt_of_succ_lt h)) := by
  by_cases h1 : (n + 1) % 256 = 255
  · refine Eq.trans ?_ (if_pos h1).symm
    exact (outsAt0_C m c ⟨n + 1, h⟩ h0 h1).trans
      (CaseValues.last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) _ _ (iblk m c 0 ⟨n + 1, h⟩) (iblk m c 1 ⟨n + 1, h⟩) (iblk m c 2 ⟨n + 1, h⟩) (iblk m c 3 ⟨n + 1, h⟩) (iblk m c 4 ⟨n + 1, h⟩) (outsAt0 (F := Ideal) m c n (Nat.lt_of_succ_lt h)))
  · refine Eq.trans ?_ (if_neg h1).symm
    exact (outsAt0_B m c ⟨n + 1, h⟩ h0 h1).trans
      (CaseValues.middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) _ _ (iblk m c 0 ⟨n + 1, h⟩) (iblk m c 1 ⟨n + 1, h⟩) (iblk m c 2 ⟨n + 1, h⟩) (iblk m c 3 ⟨n + 1, h⟩) (iblk m c 4 ⟨n + 1, h⟩) (outsAt0 (F := Ideal) m c n (Nat.lt_of_succ_lt h)))

/-- After point `j` the block holds the fold from point 0. -/
theorem fold_eq (c : Dev nD) (j : Nat) (hj : j < 256) (h : 256 * 0 + j < cfg0.N) :
    outsAt0 (F := Ideal) m c (256 * 0 + j) h = accAt (start m c) (next m c) (256 * 0) j h :=
  eq_accAt (fun n h => outsAt0 (F := Ideal) m c n h) 256 (start m c) (next m c)
    (fun n h h0 => at_first m c n h h0) (fun n h h0 => at_later m c n h h0) 0 j hj h

/-! ## The fold, unrolled -/

/-- The block the first point zeroes holds the extended real 0. -/
theorem zeroed (y : S1x1.Idx) : k0_pay2 (F := Ideal) y = 0 := by
  show Ideal.ofBits .f32 0x00000000#32 = 0
  exact Ideal.ofBits_zero_f32

/-- The last point's division, at the block's entry. -/
theorem divided (v : FVec Ideal S1x1 .f32) (y : S1x1.Idx) :
    k0_pay1 (F := Ideal) v y = Ideal.div (v y) (Ideal.ofBits .f32 0x45800000#32) := by
  unfold k0_pay1
  rw [shapeCast_self]
  rfl

/-- After point 254 the block holds the sum of the first 255 tile totals. -/
theorem before_last (c : Dev nD) (h : 0 + 254 < cfg0.N) (y : S1x1.Idx) :
    accAt (start m c) (next m c) 0 254 h y = 0 + ∑ s ∈ Finset.range (254 + 1), addend m c (0 + s) :=
  accAt_add_apply (start m c) (next m c) (fun _ => (0 : Ideal .f32)) (fun n _ => addend m c n) 0 254
    (fun h i => (step m c ⟨0, h⟩ (k0_pay2 (F := Ideal)) i).trans (congrArg (· + addend m c 0) (zeroed i)))
    (fun n h acc i h1 h2 => by
      unfold next
      rw [if_neg (by omega)]
      exact step m c ⟨n, h⟩ acc i)
    254 le_rfl h y

/-- The 256 tile totals add up to the total over all triples. -/
theorem all_tiles (c : Dev nD) :
    ∑ s ∈ Finset.range 256, addend m c s = total (scores m c) (labels m c) (margin m c) := by
  rw [Finset.sum_range]
  refine (Finset.sum_congr rfl fun t _ => (dif_pos t.isLt : addend m c t.val = _)).trans ?_
  exact PairTiles.sum_tiles (fun b r c' => term (scores m c) (labels m c) (margin m c) b r c')

/-- The last point's step: it adds its tile total and divides. -/
theorem next_last (c : Dev nD) (h : 255 < cfg0.N) (acc : FVec Ideal S1x1 .f32) :
    next m c 255 h acc = k0_pay1 (F := Ideal) (k0_pay3 (F := Ideal) (iblk m c 1 ⟨255, h⟩) (iblk m c 2 ⟨255, h⟩) (iblk m c 3 ⟨255, h⟩) (iblk m c 4 ⟨255, h⟩) (iblk m c 0 ⟨255, h⟩) acc) :=
  if_pos (by decide)

/-- AFTER THE LAST POINT the block holds the loss. -/
theorem block_ends (c : Dev nD) (h : 255 < cfg0.N) :
    outsAt0 (F := Ideal) m c 255 h = fun _ => loss (scores m c) (labels m c) (margin m c) := by
  funext y
  have e := congrFun (fold_eq m c 255 (by decide) h) y
  refine e.trans ?_
  show next m c 255 h (accAt (start m c) (next m c) 0 254 (Nat.lt_of_succ_lt h)) y = _
  rw [next_last, divided, step m c ⟨255, h⟩, before_last m c (Nat.lt_of_succ_lt h) y, zero_add]
  show Ideal.div ((∑ s ∈ Finset.range 255, addend m c (0 + s)) + addend m c 255) _ = _
  simp only [Nat.zero_add]
  rw [← Finset.sum_range_succ (fun s => addend m c s) 255, all_tiles]
  rfl

end Cert.KernelIdeal.Running

end
-- ==== Proof.KernelValue.lean ====
/-
  The idealized kernel's run ends with the loss in its result.

  The accumulator block is written back once, after the last grid point, and it is the whole [1, 1] result array; the host then
  views that array as a scalar. After the last point the block holds the loss, so the scalar result is the loss, and the three
  arguments end as they were launched.
-/
import proofs.«156828_j21775484190872_2_alg».proof.Proof.Running
import Idealize.ShloMosaic.Lib.StableHlo.Run

set_option maxRecDepth 16384

noncomputable section

namespace Cert.KernelIdeal.KernelValue

open Cert.KernelIdeal Cert.KernelIdeal.Gen Idealize.ShloMosaic Idealize.ShloMosaic.TcCoe Idealize.SL.Sem
open Idealize.ShloMosaic.ValueIdx
open Idealize.ShloMosaic.Pipeline (Dat)
open Cert.PairHinge (loss)
open Cert.KernelIdeal.Running (scores labels margin)

variable (m : (ℓ : Loc nD τ sig) → Buf (Elt Ideal) ℓ) (ρ : Dev nD → PrngReg)

/-- The loss of core `c`'s arguments. -/
abbrev lossOf (c : Dev nD) : Ideal .f32 := loss (scores m c) (labels m c) (margin m c)

/-- The [1, 1] result array holding it. -/
abbrev held (c : Dev nD) : Buf (Elt Ideal) ((c : Thread nD τ).loc main_v7) := fun _ => lossOf m c

/-- The last grid point. -/
def lastPoint : Fin cfg0.N := ⟨255, by rw [show cfg0.N = 256 from N_0]; decide⟩

/-- The result window never moves: decided over the grid. -/
theorem stays : ∀ t : Fin cfg0.N, win0_5.index t (0 : Fin 2) = 0 ∧ win0_5.index t (1 : Fin 2) = 0 :=
  (by decide +kernel : ∀ t : Fin grid0.N, _)

/-- The one write-back, after the last point, writes the loss. -/
theorem flushed_eq (c : Dev nD) (t : Fin cfg0.N) (hf : (cfg0.win 5).flush t = true) :
    (dats m 0 c).flushed 5 t = ((cfg0.win 5).blk t).view.read (Elt Ideal) (held m c) := by
  have hN : t.val < 256 := lt_of_lt_of_eq t.isLt (show cfg0.N = 256 from N_0)
  have h255 : t.val = 255 := by have := (flush0_5 t).mp hf; omega
  have e : outsAt0 (F := Ideal) m c t.val t.isLt = fun _ => lossOf m c := by
    obtain ⟨n, hn⟩ := t
    dsimp only at h255
    subst h255
    exact Running.block_ends m c hn
  show (cfg0.win 5).cut (grid0.coords t) ((dats m 0 c).after 5 t) = _
  rw [after0_5, e]
  funext y
  rw [View.read_apply]
  rfl

/-- That block is the whole result array. -/
theorem covered (c : Dev nD) (i : ((cfg0.win 5).arr.view.loc (c.tc : Thread nD τ)).2.ty.Idx) :
    ∃ t : Fin cfg0.N, (cfg0.win 5).flush t = true ∧ i ∈ ((cfg0.win 5).blk t).view.set := by
  refine ⟨lastPoint, (flush0_5 lastPoint).mpr rfl, ?_⟩
  obtain ⟨s0, s1⟩ := stays lastPoint
  show i ∈ ((View.whole main_v7).slice (win0_5.rect lastPoint)).set
  rw [View.set_slice_whole, Rect.mem_set_unit]
  intro a
  have h0 : (i 0 : Nat) < 1 := (i 0).isLt
  have h1 : (i 1 : Nat) < 1 := (i 1).isLt
  match a with
  | ⟨0, _⟩ =>
    show win0_5.index lastPoint (0 : Fin 2) * 1 ≤ (i 0 : Nat) ∧ (i 0 : Nat) < win0_5.index lastPoint (0 : Fin 2) * 1 + 1
    rw [s0]; omega
  | ⟨1, _⟩ =>
    show win0_5.index lastPoint (1 : Fin 2) * 1 ≤ (i 1 : Nat) ∧ (i 1 : Nat) < win0_5.index lastPoint (1 : Fin 2) * 1 + 1
    rw [s1]; omega

/-- So the result array ends holding the loss. -/
theorem result_array (c : Dev nD) : (dats m 0 c).arrAt 5 cfg0.N = held m c :=
  (dats m 0 c).arrAt_eq_of_cover 5 (held m c) (flushed_eq m c) (covered c)

/-- The host's last line views the result array as a scalar: the scalar result is the loss. -/
theorem scalar_result (c : Dev nD) :
    Pipeline.afterTail₀ cfgs (dats m) 0 (V0 m) [hostOps1] c main_v8 = fun _ => lossOf m c := by
  unfold Pipeline.afterTail₀
  show StableHlo.after hostOps1 _ (Proc.devRef .tc main_v8) = _
  after_results
  have hw : Pipeline.withArrays (cfgs 0).spec c (V0 m c) (fun w => (dats m 0 c).arrAt w (cfgs 0).N) (Proc.devRef .tc main_v7)
      = held m c :=
    (Pipeline.withArrays_arr spec0 launch0.win.arr_inj c (V0 m c) (fun w => (dats m 0 c).arrAt w cfg0.N) 5).trans
      (result_array m c)
  rw [hw]
  rfl

/-- THE RUN, READ: every weakly fair execution of the idealized kernel terminates with the scalar result at the loss of the
    arguments and the three arguments unchanged. -/
theorem run : θ_run defs (onTc (τ := τ) (main (F := Ideal))) ⟨m, fun _ => 0, ρ⟩ (fun r => ∀ c : Dev nD,
      r.2.mem ((c.tc : Thread nD τ).loc main_v8) = (fun _ => lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v8 (Pipeline.mem_restRefs_of main_v8 (by decide) (by decide))).trans (scalar_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.LibSumIdx3.lean ====
/-
  A sum over the indices of a rank-3 shape is the triple sum over its coordinates.
-/
import Idealize.ShloMosaic.Lib.ValueIdx

namespace Idealize.ShloMosaic.ValueIdx3

open Idealize.ShloMosaic Idealize.ShloMosaic.ValueIdx

/-- A rank-3 index set is the product of its three coordinate ranges (the rank-3 companion of the library's `idxEquiv2`) … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it, in any commutative additive monoid, is the triple sum over the coordinates, each index written
    `ix3 a b c` (the rank-3 companion of the library's `sum_idx2`). -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.ValueIdx3
-- ==== Proof.RefLoss.lean ====
/-
  The reference program computes the loss of `HingeSpec`.

  Its last stage divides by 4096 the sum, started from the zero literal, of a [32, 2048, 2048] array whose entry (b, r, c) is the
  hinge term of batch row b and items r, c: the two transposes and the four broadcasts only say where each operand is read,
  out[r, b], out[c, b], label[r, b], label[c, b] and the margin.
-/
import proofs.«156828_j21775484190872_2_alg».proof.Proof.Gen.ReferenceIdeal.Read
import proofs.«156828_j21775484190872_2_alg».proof.Proof.HingeSpec
import proofs.«156828_j21775484190872_2_alg».proof.Proof.LibSumIdx3

noncomputable section

namespace Cert.ReferenceIdeal.RefLoss

open Cert.ReferenceIdeal Cert.ReferenceIdeal.Read Idealize.ShloMosaic Idealize.ShloMosaic.ValueIdx

/-- Where the row operand of entry (b, r, c) is read: item r, batch entry b. -/
theorem row_idx (b : Fin 32) (r c : Fin 2048) :
    idx_main_v0 (idx_main_v2 (idx_main_v4 (ix3 b r c))) = ix2 r b :=
  funext fun a => by match a with | ⟨0, _⟩ => rfl | ⟨1, _⟩ => rfl

/-- Where the column operand of entry (b, r, c) is read: item c, batch entry b. -/
theorem col_idx (b : Fin 32) (r c : Fin 2048) :
    idx_main_v0 (idx_main_v3 (idx_main_v5 (ix3 b r c))) = ix2 c b :=
  funext fun a => by match a with | ⟨0, _⟩ => rfl | ⟨1, _⟩ => rfl

/-- The same two places in `label`. -/
theorem row_idx' (b : Fin 32) (r c : Fin 2048) :
    idx_main_v1 (idx_main_v7 (idx_main_v9 (ix3 b r c))) = ix2 r b :=
  funext fun a => by match a with | ⟨0, _⟩ => rfl | ⟨1, _⟩ => rfl
theorem col_idx' (b : Fin 32) (r c : Fin 2048) :
    idx_main_v1 (idx_main_v8 (idx_main_v10 (ix3 b r c))) = ix2 c b :=
  funext fun a => by match a with | ⟨0, _⟩ => rfl | ⟨1, _⟩ => rfl

/-- Entry (b, r, c) of the array the reference sums is the hinge term of (b, r, c). -/
theorem stage_term (x0 x1 : (⟨S2048x32, .f32⟩ : BufTy).Contents (Elt Ideal)) (x2 : (⟨S_, .f32⟩ : BufTy).Contents (Elt Ideal))
    (b : Fin 32) (r c : Fin 2048) :
    val_main_v16 (F := Ideal) x0 x1 x2 (ix3 b r c) = Cert.PairHinge.term x0 x1 (x2 ix0) b r c := by
  rw [val_main_v16_apply, val_main_v15_apply, val_main_cst_apply, val_main_v14_apply, val_main_v13_apply, val_main_v12_apply,
    val_main_v6_apply, val_main_v4_apply, val_main_v2_apply, val_main_v0_apply, val_main_v5_apply, val_main_v3_apply,
    val_main_v0_apply, val_main_v11_apply, val_main_v9_apply, val_main_v7_apply, val_main_v1_apply, val_main_v10_apply,
    val_main_v8_apply, val_main_v1_apply]
  rw [row_idx, col_idx, row_idx', col_idx']
  rfl

/-- The reference's result, at its one index, is the loss. -/
theorem result_eq (x0 x1 : (⟨S2048x32, .f32⟩ : BufTy).Contents (Elt Ideal)) (x2 : (⟨S_, .f32⟩ : BufTy).Contents (Elt Ideal)) :
    val_main_v18 (F := Ideal) x0 x1 x2 = fun _ => Cert.PairHinge.loss x0 x1 (x2 ix0) := by
  funext i
  rw [val_main_v18_apply, val_main_v17_apply, val_main_cst_0_apply, val_main_cst_1_apply,
    Idealize.ShloMosaic.ValueIdx3.sum_idx3]
  simp only [stage_term]
  show Ideal.div (Ideal.ofBits .f32 0x00000000#32 + Cert.PairHinge.total x0 x1 (x2 ix0)) (Ideal.ofBits .f32 0x45800000#32) = _
  rw [Ideal.ofBits_zero_f32, zero_add]
  rfl

end Cert.ReferenceIdeal.RefLoss

end
-- ==== Proof.lean ====
/-
  The pairwise max-margin hinge loss: a tiled accumulation against one full sum.

  For scores `out` and labels `label` of 2048 items in 32 batch rows and a margin, the loss is
      ( Σ over batch rows b and item pairs (r, c) of max(margin − (out[r,b] − out[c,b]) · (label[r,b] − label[c,b]), 0) ) / 4096.
  The reference forms the [32, 2048, 2048] array of terms and sums it in one reduction. The kernel walks a 16 × 16 grid of tile
  pairs; at each it forms the [32, 128, 128] terms of the pair, adds them over lanes, batch rows and sublanes, and adds the result
  into one accumulator that it zeroes at the first pair and divides by 4096 after the last. On the extended reals both are the same
  number: each term is computed by the same four operations from the same five entries (the host-side transposes and broadcasts
  only decide where an entry is read), the accumulator after the last pair is the sum of the 256 tile totals, and those regroup to
  the full sum because addition on the extended reals is commutative and associative — no finiteness is needed for that, so the
  precondition is used by no step of the value argument. 4096 is the same literal on both sides and both divisions are the one
  division of the extended reals.

  The frames of the two kernel programs are the generated ones; the reference's frame is its generated run with the result
  dropped; the idealization rewrote nothing, so the preservation claim is trivial.
-/
import proofs.«156828_j21775484190872_2_alg».proof.Defs
import proofs.«156828_j21775484190872_2_alg».proof.Proof.Gen.Kernel
import proofs.«156828_j21775484190872_2_alg».proof.Proof.Gen.Kernel.Skeleton
import proofs.«156828_j21775484190872_2_alg».proof.Proof.Gen.Kernel.Launch
import proofs.«156828_j21775484190872_2_alg».proof.Proof.Gen.Kernel.Points
import proofs.«156828_j21775484190872_2_alg».proof.Proof.Gen.Kernel.Frame
import proofs.«156828_j21775484190872_2_alg».proof.Proof.Gen.KernelIdeal
import proofs.«156828_j21775484190872_2_alg».proof.Proof.Gen.KernelIdeal.Skeleton
import proofs.«156828_j21775484190872_2_alg».proof.Proof.Gen.KernelIdeal.Launch
import proofs.«156828_j21775484190872_2_alg».proof.Proof.Gen.KernelIdeal.Points
import proofs.«156828_j21775484190872_2_alg».proof.Proof.Gen.KernelIdeal.Frame
import proofs.«156828_j21775484190872_2_alg».proof.Proof.Gen.ReferenceIdeal
import proofs.«156828_j21775484190872_2_alg».proof.Proof.Gen.ReferenceIdeal.Run
import proofs.«156828_j21775484190872_2_alg».proof.Proof.Gen.ReferenceIdeal.Read
import proofs.«156828_j21775484190872_2_alg».proof.Proof.Gen.Pre_finite_inputs
import proofs.«156828_j21775484190872_2_alg».proof.Proof.KernelValue
import proofs.«156828_j21775484190872_2_alg».proof.Proof.RefLoss
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals, from memories that agree on the three arguments, the kernel's scalar result and the reference's are
    both the loss of those arguments. -/
theorem algebraic : Cert.algebraic_KernelIdeal_ReferenceIdeal := by
  intro m ρ m' ρ' _ hagree
  refine ⟨fun c => (fun _ => Cert.KernelIdeal.KernelValue.lossOf m c), Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v18_eq, Cert.ReferenceIdeal.RefLoss.result_eq,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
